-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : FVec F S640000x128 .f32) (main_arg2 : IVec S640000 32) (main_arg3 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S50000x128 : Shape := ⟨2, ![50000, 128]⟩
abbrev S640000x128 : Shape := ⟨2, ![640000, 128]⟩
abbrev S640000 : Shape := ⟨1, ![640000]⟩
abbrev S128x256 : Shape := ⟨2, ![128, 256]⟩
abbrev S_ : Shape := ⟨0, ![]⟩
abbrev S640000x1 : Shape := ⟨2, ![640000, 1]⟩
abbrev S50000 : Shape := ⟨1, ![50000]⟩
abbrev S50000x1 : Shape := ⟨2, ![50000, 1]⟩
abbrev S128x128 : Shape := ⟨2, ![128, 128]⟩
abbrev S5000x128 : Shape := ⟨2, ![5000, 128]⟩
abbrev S5000x1 : Shape := ⟨2, ![5000, 1]⟩

abbrev nBuf : Space → Nat
  | .hbm => 28
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S128x256, .f32⟩
  | .hbm, ⟨4, _⟩ => ⟨S_, .f32⟩
  | .hbm, ⟨5, _⟩ => ⟨S50000x128, .f32⟩
  | .hbm, ⟨6, _⟩ => ⟨S640000x1, .i32⟩
  | .hbm, ⟨7, _⟩ => ⟨S50000x128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S50000, .f32⟩
  | .hbm, ⟨12, _⟩ => ⟨S640000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S128x128, .f32⟩
  | .hbm, ⟨22, _⟩ => ⟨S128x128, .f32⟩
  | .hbm, ⟨23, _⟩ => ⟨S128x128, .bf16⟩
  | .hbm, ⟨24, _⟩ => ⟨S128x128, .f32⟩
  | .hbm, ⟨25, _⟩ => ⟨S128x128, .f32⟩
  | .hbm, ⟨26, _⟩ => ⟨S128x128, .bf16⟩
  | .hbm, ⟨27, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x128 : S_.BroadcastsInDim S50000x128 (![] : Fin 0 → Fin S50000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S50000 : S_.BroadcastsInDim S50000 (![] : Fin 0 → Fin S50000.rank)
  shapeCasts_S50000_S50000x1 : S50000.ShapeCasts S50000x1
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S128x256 : Shape := ⟨2, ![128, 256]⟩
abbrev S_ : Shape := ⟨0, ![]⟩
abbrev S640000x1 : Shape := ⟨2, ![640000, 1]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S128x256, .f32⟩
  | .hbm, ⟨4, _⟩ => ⟨S_, .f32⟩
  | .hbm, ⟨5, _⟩ => ⟨S50000x128, .f32⟩
  | .hbm, ⟨6, _⟩ => ⟨S640000x1, .i32⟩
  | .hbm, ⟨7, _⟩ => ⟨S50000x128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S50000, .f32⟩
  | .hbm, ⟨12, _⟩ => ⟨S640000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x128, .f32⟩
  | .hbm, ⟨19, _⟩ => ⟨S50000x128, .f32⟩
  | .hbm, ⟨20, _⟩ => ⟨S50000x256, .f32⟩
  | .hbm, ⟨21, _⟩ => ⟨S256x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x256_S256x128_S50000x128_1_0_0_1_n_n_wf : DotDims.WF S50000x256 S256x128 S50000x128 [1] [0] [0] [1] [] []

variable [Facts₀]

def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.BlockProduct.lean ====
/-
  What the kernel body stores, read at one entry of its block.

  The body holds 5000 nodes at a time: their own features `self`, their neighbour sums `seg`, one reciprocal
  `inv` per node (a column), and the two square halves of the weights, already transposed. It scales every row of
  `seg` by the node's reciprocal, multiplies `self` by the first half and the scaled sums by the second half, each
  product into a zero accumulator, and adds the two. At row `p`, column `q` that is two plain sums of 128 products;
  the changes of float format on the way are the identity on the extended reals.
-/
import proofs.«109133_j54863912239180_2_alg».proof.Proof.Gen.KernelIdeal.Skeleton
import proofs.«109133_j54863912239180_2_alg».proof.Proof.LibDenseBlock
import proofs.«109133_j54863912239180_2_alg».proof.Proof.LibColumn
import Idealize.ShloMosaic.Lib.ValueIdx
import Idealize.ShloMosaic.Lib.Pipeline.Value

noncomputable section

namespace Cert.BlockProduct

open Idealize.ShloMosaic Idealize.ShloMosaic.ValueIdx
open Cert.KernelIdeal Cert.KernelIdeal.Gen

/-- Entry `(p, q)` of the stored block: the node's own features against column `q` of the first weight half, plus
    its neighbour sums, each scaled by the node's reciprocal, against column `q` of the second half. -/
theorem payload_apply (inv : Vec Ideal S5000x1 .f32) (seg self : Vec Ideal S5000x128 .f32)
    (wself wnbr : Vec Ideal S128x128 .bf16) (p : Fin 5000) (q : Fin 128) :
    k0_pay1 (F := Ideal) inv seg self wself wnbr (ix2 p q)
      = (∑ n : Fin 128, self (ix2 p n) * wself (ix2 n q))
        + ∑ n : Fin 128, (seg (ix2 p n) * inv (ix2 p (0 : Fin 1))) * wnbr (ix2 n q) := by
  unfold k0_pay1
  refine congrArg₂ (· + ·) ?_ ?_
  · refine (DenseBlock.matmul_zero_apply (dot_S5000x128_S128x128_S5000x128_1_0_0_1_n_n).wf _ _ p q).trans ?_
    refine Finset.sum_congr rfl fun n _ => congrArg₂ (· * ·) rfl ?_
    exact congrFun (shapeCast_self wself _) _
  · refine (DenseBlock.matmul_zero_apply (dot_S5000x128_S128x128_S5000x128_1_0_0_1_n_n).wf _ _ p q).trans ?_
    refine Finset.sum_congr rfl fun n _ => congrArg₂ (· * ·) ?_ (congrFun (shapeCast_self wnbr _) _)
    refine congrArg₂ (· * ·) (congrFun (shapeCast_self seg _) _) ?_
    refine (Column.broadcastTo_a1_ab_apply _ _ p n).trans ?_
    exact congrFun ((shapeCast_self _ _).trans (shapeCast_self inv _)) _

end Cert.BlockProduct

end
-- ==== Proof.MeanLaws.lean ====
/-
  The laws that join a mean taken by a reciprocal to a mean taken by a quotient.

  A node's neighbour features are summed and divided by the number of neighbours, that number raised to at
  least one so that an isolated node keeps a zero sum. One program divides the sum by the raised count; the other
  first forms the reciprocal `1 / c` of the raised count and multiplies the sum by it. Over the extended reals a
  quotient by any non-zero `y` is the product with `y⁻¹`, the infinities included (`(±∞)⁻¹ = 0`), so
  `x * (1 / y) = x * (1 * y⁻¹) = x / y` needs only `y ≠ 0`, and a count raised to at least one is at least one,
  whatever the count is. No entry has to be finite for this.

  The projection then contracts a row of 256 numbers, the node's own 128 features followed by the 128 means, with a
  row of weights; the other program contracts the two halves separately and adds. A finite sum in a commutative
  monoid may be grouped either way.
-/
import Idealize.ShloMosaic.PureOps.Ideal
import Idealize.ShloMosaic.PureOps.Ideal.Laws

noncomputable section

namespace Cert.MeanLaws

open Idealize.ShloMosaic

/-- The single-precision word of `1.0` denotes the number one. -/
theorem ofBits_one_f32 : Ideal.ofBits .f32 0x3F800000#32 = 1 := by
  simp [Ideal.ofBits, Ideal.ieee, -EReal.coe_mul]; norm_num

/-- Multiplying by the reciprocal of a non-zero `y` is dividing by `y`, at the infinities too. -/
theorem mul_recip (x y : EReal) (hy : y ≠ 0) : x * Ideal.div 1 y = Ideal.div x y := by
  rw [Ideal.div, if_neg hy, one_mul, Ideal.div, if_neg hy]

/-- A count raised to at least one is not zero. -/
theorem max_one_ne_zero (c : EReal) : max c 1 ≠ 0 :=
  ne_of_gt (lt_of_lt_of_le zero_lt_one (le_max_right c 1))

/-- A sum of 256 terms is the sum of the first 128 plus the sum of the last 128. -/
theorem sum_halves {M : Type} [AddCommMonoid M] (f : Fin 256 → M) :
    ∑ k : Fin 256, f k
      = (∑ n : Fin 128, f ⟨n.val, by have := n.isLt; omega⟩) + ∑ n : Fin 128, f ⟨128 + n.val, by have := n.isLt; omega⟩ :=
  Fin.sum_univ_add (a := 128) (b := 128) f

end Cert.MeanLaws

end
-- ==== Proof.MeanProjection.lean ====
/-
  What both programs compute, as one function of four arrays.

  Node `p` has its own features `self p ·` (128 numbers), the sum `seg p ·` of its neighbours' features (128
  numbers) and the number of its neighbours raised to at least one, `cmax p`. Its row of 256 numbers is its own
  features followed by the neighbour means `seg p n / cmax p`, and output `q` is that row contracted with row `q`
  of the weights `W` (128 rows of 256): columns `0 … 127` of `W` meet the node's own features, columns
  `128 … 255` meet the means.
-/
import Idealize.ShloMosaic.PureOps.Ideal
import Idealize.ShloMosaic.Lib.ValueIdx

noncomputable section

namespace Cert.MeanProjection

open Idealize.ShloMosaic Idealize.ShloMosaic.ValueIdx

/-- Column `n` of the weights' first half. -/
abbrev lo (n : Fin 128) : Fin 256 := ⟨n.val, by have := n.isLt; omega⟩
/-- Column `n` of the weights' second half. -/
abbrev hi (n : Fin 128) : Fin 256 := ⟨128 + n.val, by have := n.isLt; omega⟩

/-- Output `q` of node `p`: its own features against the first half of weight row `q`, plus its neighbour means
    against the second half. -/
def entry (self seg : (⟨2, ![50000, 128]⟩ : Shape).Idx → EReal) (cmax : (⟨1, ![50000]⟩ : Shape).Idx → EReal)
    (W : (⟨2, ![128, 256]⟩ : Shape).Idx → EReal) (p : Fin 50000) (q : Fin 128) : EReal :=
  (∑ n : Fin 128, self (ix2 p n) * W (ix2 q (lo n)))
    + ∑ n : Fin 128, Ideal.div (seg (ix2 p n)) (cmax (ix1 p)) * W (ix2 q (hi n))

/-- The whole result array. -/
def out (self seg : (⟨2, ![50000, 128]⟩ : Shape).Idx → EReal) (cmax : (⟨1, ![50000]⟩ : Shape).Idx → EReal)
    (W : (⟨2, ![128, 256]⟩ : Shape).Idx → EReal) : (⟨2, ![50000, 128]⟩ : Shape).Idx → EReal :=
  fun j => entry self seg cmax W (j 0) (j 1)

theorem out_apply (self seg : (⟨2, ![50000, 128]⟩ : Shape).Idx → EReal) (cmax : (⟨1, ![50000]⟩ : Shape).Idx → EReal)
    (W : (⟨2, ![128, 256]⟩ : Shape).Idx → EReal) (p : Fin 50000) (q : Fin 128) :
    out self seg cmax W (ix2 p q) = entry self seg cmax W p q := rfl

end Cert.MeanProjection

end
-- ==== Proof.StagedArrays.lean ====
/-
  The arrays the host prepares for the kernel, each read at an index.

  Before the kernel runs, the host adds every edge's feature row into the row of the edge's source node (`segSum`),
  counts each node's edges by adding ones the same way (`rawCount`), raises the counts to at least one (`count`),
  takes their reciprocals and stands them up as a column (`recip`), and cuts the weights into their left and right
  square halves, transposing each (`wLeft`, `wRight`). Read at an index: the reciprocal column at node `p` is
  `1 / count p`; the transposed left half at `(n, q)` is the weights at `(q, n)`; the transposed right half at
  `(n, q)` is the weights at `(q, 128 + n)`. The two additions by source node are kept as they are: the reference
  performs the same two.
-/
import proofs.«109133_j54863912239180_2_alg».proof.Proof.Gen.KernelIdeal.Frame
import proofs.«109133_j54863912239180_2_alg».proof.Proof.MeanLaws
import proofs.«109133_j54863912239180_2_alg».proof.Proof.MeanProjection
import proofs.«109133_j54863912239180_2_alg».proof.Proof.LibColumn
import Idealize.ShloMosaic.Lib.StableHlo.Run
import Idealize.ShloMosaic.Lib.ValueIdx
import Idealize.ShloMosaic.Lib.Pipeline.Value

noncomputable section

namespace Cert.StagedArrays

open Idealize.ShloMosaic Idealize.ShloMosaic.TcCoe Idealize.SL.Sem Idealize.ShloMosaic.StableHlo
open Idealize.ShloMosaic.ValueIdx
open Cert.KernelIdeal Cert.KernelIdeal.Gen Cert.MeanProjection

/-- A vector of ones, of any shape. -/
abbrev ones (s : Shape) (h : S_.BroadcastsInDim s (![] : Fin 0 → Fin s.rank)) : FVec Ideal s .f32 :=
  broadcastInDim s ![] h (constant (F := Ideal) S_ .f32 0x3F800000#32)

/-- A vector of zeros, of any shape. -/
abbrev zeros (s : Shape) (h : S_.BroadcastsInDim s (![] : Fin 0 → Fin s.rank)) : FVec Ideal s .f32 :=
  broadcastInDim s ![] h (constant (F := Ideal) S_ .f32 0x00000000#32)

/-- Each node's sum of the feature rows of the edges that name it as their source. -/
def segSum (nbr : FVec Ideal S640000x128 .f32) (src : IVec S640000 32) : FVec Ideal S50000x128 .f32 :=
  Host.scatterAdd scatter_S50000x128_S640000x1_S640000x128_1_0_0_1 (zeros S50000x128 bcast_S_S50000x128)
    (broadcastInDim S640000x1 ![0] bcast_S640000_S640000x1_0 src) nbr

/-- Each node's number of such edges: ones added the same way. -/
def rawCount (src : IVec S640000 32) : FVec Ideal S50000 .f32 :=
  Host.scatterAdd scatter_S50000_S640000x1_S640000_n_0_0_1 (zeros S50000 bcast_S_S50000)
    (broadcastInDim S640000x1 ![0] bcast_S640000_S640000x1_0 src) (ones S640000 bcast_S_S640000)

/-- The counts raised to at least one. -/
def count (src : IVec S640000 32) : FVec Ideal S50000 .f32 :=
  maximumf (rawCount src) (ones S50000 bcast_S_S50000)

/-- Their reciprocals, as a column. -/
def recip (src : IVec S640000 32) : FVec Ideal S50000x1 .f32 :=
  shapeCast S50000x1 (Host.divf (ones S50000 bcast_S_S50000) (count src)) shapeCasts_S50000_S50000x1

/-- The left square half of the weights, transposed. -/
def wLeft (W : FVec Ideal S128x256 .f32) : FVec Ideal S128x128 .bf16 :=
  truncf .bf16 (transpose S128x128 [1, 0] (extractStridedSlice S128x128 ![0, 0] W slices_S128x256_S128x128_0_0)
    transposes_S128x128_S128x128_1_0) bitsLt_bf16_f32

/-- The right square half of the weights, transposed. -/
def wRight (W : FVec Ideal S128x256 .f32) : FVec Ideal S128x128 .bf16 :=
  truncf .bf16 (transpose S128x128 [1, 0] (extractStridedSlice S128x128 ![0, 128] W slices_S128x256_S128x128_0_128)
    transposes_S128x128_S128x128_1_0) bitsLt_bf16_f32

/-! ## Read at an index -/

/-- A raised count is the larger of the count and one. -/
theorem count_apply (src : IVec S640000 32) (i : S50000.Idx) :
    count src i = max (rawCount src i) 1 := by
  show max (rawCount src i) (ones S50000 bcast_S_S50000 i) = _
  rw [show ones S50000 bcast_S_S50000 i = 1 from
    (Column.broadcastInDim_scalar_apply _ bcast_S_S50000 _ i).trans MeanLaws.ofBits_one_f32]

/-- So it is never zero. -/
theorem count_ne_zero (src : IVec S640000 32) (i : S50000.Idx) : count src i ≠ 0 := by
  rw [count_apply]; exact MeanLaws.max_one_ne_zero _

/-- The host's quotient of two arrays, read at an index, is the quotient of the two entries. -/
theorem hostDivf_apply {s : Shape} (a b : FVec Ideal s .f32) (i : s.Idx) : Host.divf a b i = Ideal.div (a i) (b i) := rfl

/-- The reciprocal column at node `p` is one over the node's raised count. -/
theorem recip_apply (src : IVec S640000 32) (p : Fin 50000) (u : Fin 1) :
    recip src (ix2 p u) = Ideal.div 1 (count src (ix1 p)) := by
  unfold recip
  refine (Column.shapeCast_a_a1_apply _ shapeCasts_S50000_S50000x1 p u).trans ?_
  refine (hostDivf_apply _ _ _).trans ?_
  exact congrArg (fun z => Ideal.div z (count src (ix1 p)))
    ((Column.broadcastInDim_scalar_apply _ bcast_S_S50000 _ (ix1 p)).trans MeanLaws.ofBits_one_f32)

/-- The transposed left half at `(n, q)` is the weights at row `q`, column `n`. -/
theorem wLeft_apply (W : FVec Ideal S128x256 .f32) (n q : Fin 128) : wLeft W (ix2 n q) = W (ix2 q (lo n)) := by
  show transpose S128x128 [1, 0] (extractStridedSlice S128x128 ![0, 0] W slices_S128x256_S128x128_0_0)
    transposes_S128x128_S128x128_1_0 (ix2 n q) = _
  refine (transpose_apply [1, 0] _ transposes_S128x128_S128x128_1_0 (ix2 n q) (ix2 q n) (fun b => match b with
    | ⟨0, _⟩ => rfl
    | ⟨1, _⟩ => rfl)).trans ?_
  exact extractStridedSlice_apply ![0, 0] W slices_S128x256_S128x128_0_0 (ix2 q n) (ix2 q (lo n)) (fun a => match a with
    | ⟨0, _⟩ => (Nat.zero_add _).symm
    | ⟨1, _⟩ => (Nat.zero_add _).symm)

/-- The transposed right half at `(n, q)` is the weights at row `q`, column `128 + n`. -/
theorem wRight_apply (W : FVec Ideal S128x256 .f32) (n q : Fin 128) : wRight W (ix2 n q) = W (ix2 q (hi n)) := by
  show transpose S128x128 [1, 0] (extractStridedSlice S128x128 ![0, 128] W slices_S128x256_S128x128_0_128)
    transposes_S128x128_S128x128_1_0 (ix2 n q) = _
  refine (transpose_apply [1, 0] _ transposes_S128x128_S128x128_1_0 (ix2 n q) (ix2 q n) (fun b => match b with
    | ⟨0, _⟩ => rfl
    | ⟨1, _⟩ => rfl)).trans ?_
  exact extractStridedSlice_apply ![0, 128] W slices_S128x256_S128x128_0_128 (ix2 q n) (ix2 q (hi n)) (fun a => match a with
    | ⟨0, _⟩ => (Nat.zero_add _).symm
    | ⟨1, _⟩ => rfl)

/-! ## What the kernel finds in its windows' arrays -/

variable (m : (ℓ : Loc nD τ sig) → Buf (Elt Ideal) ℓ)

/-- The array of the second window holds the neighbour sums. -/
theorem V_seg (c : Dev nD) : (V m c main_v2 : FVec Ideal S50000x128 .f32)
    = segSum (m ((c : Thread nD τ).loc main_arg1)) (m ((c : Thread nD τ).loc main_arg2)) := by
  dsimp only [Gen.V, Gen.hostOps0]; after_results; rfl

/-- The array of the third window holds the reciprocal column. -/
theorem V_recip (c : Dev nD) : (V m c main_v11 : FVec Ideal S50000x1 .f32) = recip (m ((c : Thread nD τ).loc main_arg2)) := by
  dsimp only [Gen.V, Gen.hostOps0]; after_results; rfl

/-- The array of the fourth window holds the transposed left half of the weights. -/
theorem V_wLeft (c : Dev nD) : (V m c main_v14 : FVec Ideal S128x128 .bf16) = wLeft (m ((c : Thread nD τ).loc main_arg3)) := by
  dsimp only [Gen.V, Gen.hostOps0]; after_results; rfl

/-- The array of the fifth window holds the transposed right half of the weights. -/
theorem V_wRight (c : Dev nD) : (V m c main_v17 : FVec Ideal S128x128 .bf16) = wRight (m ((c : Thread nD τ).loc main_arg3)) := by
  dsimp only [Gen.V, Gen.hostOps0]; after_results; rfl

end Cert.StagedArrays

end
-- ==== Proof.BlockMean.lean ====
/-
  One entry of a stored block is one entry of the mean projection.

  Suppose the body's block of own features holds row `r` of the feature array at its row `p`, its block of neighbour
  sums holds row `r` of the sums there, its reciprocal column holds `1 / count r` there, and its two weight blocks are
  the transposed halves of the weights. Then what it stores at `(p, q)` is output `q` of node `r`: the first sum is
  the node's own features against the first half of weight row `q` term by term, and in the second sum each
  `seg r n * (1 / count r)` is `seg r n / count r` because a raised count is not zero.
-/
import proofs.«109133_j54863912239180_2_alg».proof.Proof.BlockProduct
import proofs.«109133_j54863912239180_2_alg».proof.Proof.StagedArrays
import proofs.«109133_j54863912239180_2_alg».proof.Proof.MeanLaws
import proofs.«109133_j54863912239180_2_alg».proof.Proof.MeanProjection

noncomputable section

namespace Cert.BlockMean

open Idealize.ShloMosaic Idealize.ShloMosaic.ValueIdx
open Cert.KernelIdeal Cert.KernelIdeal.Gen Cert.MeanProjection Cert.StagedArrays

/-- The stored entry `(p, q)` of a block that holds node `r` at its row `p` is the mean projection's entry `(r, q)`. -/
theorem entry_of_block (inv : Vec Ideal S5000x1 .f32) (seg self : Vec Ideal S5000x128 .f32) (wl wr : Vec Ideal S128x128 .bf16)
    (A : FVec Ideal S50000x128 .f32) (nbr : FVec Ideal S640000x128 .f32) (src : IVec S640000 32) (W : FVec Ideal S128x256 .f32)
    (p : Fin 5000) (r : Fin 50000) (q : Fin 128)
    (hself : ∀ n : Fin 128, self (ix2 p n) = A (ix2 r n))
    (hseg : ∀ n : Fin 128, seg (ix2 p n) = segSum nbr src (ix2 r n))
    (hinv : inv (ix2 p (0 : Fin 1)) = recip src (ix2 r (0 : Fin 1)))
    (hwl : ∀ n : Fin 128, wl (ix2 n q) = wLeft W (ix2 n q))
    (hwr : ∀ n : Fin 128, wr (ix2 n q) = wRight W (ix2 n q)) :
    k0_pay1 (F := Ideal) inv seg self wl wr (ix2 p q) = entry A (segSum nbr src) (count src) W r q := by
  refine (BlockProduct.payload_apply inv seg self wl wr p q).trans ?_
  unfold entry
  refine congrArg₂ (· + ·) (Finset.sum_congr rfl fun n _ => ?_) (Finset.sum_congr rfl fun n _ => ?_)
  · exact congrArg₂ (· * ·) (hself n) ((hwl n).trans (wLeft_apply W n q))
  · refine congrArg₂ (· * ·) ?_ ((hwr n).trans (wRight_apply W n q))
    refine (congrArg₂ (· * ·) (hseg n) (hinv.trans (recip_apply src r 0))).trans ?_
    exact MeanLaws.mul_recip _ _ (count_ne_zero src (ix1 r))

end Cert.BlockMean

end
-- ==== Proof.RowBlocks.lean ====
/-
  From blocks of 5000 nodes to the whole result array.

  The kernel visits ten grid points. At point `t` it is given rows `5000 t … 5000 t + 4999` of the own-feature array,
  of the neighbour sums and of the reciprocal column, and the two transposed weight halves whole; it writes back rows
  `5000 t … 5000 t + 4999` of the result. So what point `t` writes back is that band of rows of the mean projection of
  the arrays the program was launched with; the ten bands cover all 50000 rows (row `r` lies in band `r / 5000`), and
  the result array ends holding the mean projection.
-/
import proofs.«109133_j54863912239180_2_alg».proof.Proof.Gen.KernelIdeal.Value
import proofs.«109133_j54863912239180_2_alg».proof.Proof.BlockMean

noncomputable section

namespace Cert.RowBlocks

open Idealize.ShloMosaic Idealize.ShloMosaic.TcCoe Idealize.SL.Sem Idealize.ShloMosaic.ValueIdx
open Idealize.ShloMosaic.Pipeline (Dat)
open Cert.KernelIdeal Cert.KernelIdeal.Gen Cert.MeanProjection Cert.StagedArrays

variable (m : (ℓ : Loc nD τ sig) → Buf (Elt Ideal) ℓ) (ρ : Dev nD → PrngReg)

theorem hz : (![0, 0] : Fin 2 → Nat) = fun _ => 0 := funext fun a => by fin_cases a <;> rfl

/-- The mean projection of the arrays the program was launched with. -/
abbrev result (c : Dev nD) : FVec Ideal S50000x128 .f32 :=
  out (m ((c : Thread nD τ).loc main_arg0) : FVec Ideal S50000x128 .f32)
    (segSum (m ((c : Thread nD τ).loc main_arg1)) (m ((c : Thread nD τ).loc main_arg2)))
    (count (m ((c : Thread nD τ).loc main_arg2)))
    (m ((c : Thread nD τ).loc main_arg3) : FVec Ideal S128x256 .f32)

/-- The index maps over the ten points: the three row-blocked inputs move with the output down the rows and stay in
    column block 0; the two weight blocks never move; the output's row block is at most 9. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-! ## Each input block, read at an index, as rows of its array -/

/-- Row `p` of the own-feature block at point `t` is row `r` of the own-feature array, `r` the row the output's block has there. -/
theorem self_rows (c : Dev nD) (t : Fin cfg0.N) (p : Fin 5000) (n : Fin 128) (r : Fin 50000)
    (hr : r.val = win0_5.index t (0 : Fin 2) * 5000 + 1 * p.val) :
    (iblk m c 0 t : Vec Ideal S5000x128 .f32) (ix2 p n)
      = (m ((c : Thread nD τ).loc main_arg0) : FVec Ideal S50000x128 .f32) (ix2 r n) := by
  obtain ⟨e00, e01, -⟩ := idx_facts t
  show V m c main_arg0 (((cfg0.win 0).blk t).view.emb (ix2 p n)) = _
  refine (congrFun (V_main_arg0 m c) _).trans (congrArg _ ?_)
  funext a; apply Fin.ext
  match a with
  | ⟨0, _⟩ => show win0_0.index t (0 : Fin 2) * 5000 + 1 * p.val = r.val; rw [e00, hr]
  | ⟨1, _⟩ => show win0_0.index t (1 : Fin 2) * 128 + 1 * n.val = n.val; rw [e01]; omega

/-- The same for the block of neighbour sums. -/
theorem seg_rows (c : Dev nD) (t : Fin cfg0.N) (p : Fin 5000) (n : Fin 128) (r : Fin 50000)
    (hr : r.val = win0_5.index t (0 : Fin 2) * 5000 + 1 * p.val) :
    (iblk m c 1 t : Vec Ideal S5000x128 .f32) (ix2 p n)
      = segSum (m ((c : Thread nD τ).loc main_arg1)) (m ((c : Thread nD τ).loc main_arg2)) (ix2 r n) := by
  obtain ⟨-, -, e10, e11, -⟩ := idx_facts t
  show (V m c main_v2 : FVec Ideal S50000x128 .f32) (((cfg0.win 1).blk t).view.emb (ix2 p n)) = _
  refine (congrFun (V_seg m c) _).trans (congrArg _ ?_)
  funext a; apply Fin.ext
  match a with
  | ⟨0, _⟩ => show win0_1.index t (0 : Fin 2) * 5000 + 1 * p.val = r.val; rw [e10, hr]
  | ⟨1, _⟩ => show win0_1.index t (1 : Fin 2) * 128 + 1 * n.val = n.val; rw [e11]; omega

/-- The same for the block of the reciprocal column. -/
theorem recip_rows (c : Dev nD) (t : Fin cfg0.N) (p : Fin 5000) (r : Fin 50000)
    (hr : r.val = win0_5.index t (0 : Fin 2) * 5000 + 1 * p.val) :
    (iblk m c 2 t : Vec Ideal S5000x1 .f32) (ix2 p (0 : Fin 1))
      = recip (m ((c : Thread nD τ).loc main_arg2)) (ix2 r (0 : Fin 1)) := by
  obtain ⟨-, -, -, -, e20, e21, -⟩ := idx_facts t
  show (V m c main_v11 : FVec Ideal S50000x1 .f32) (((cfg0.win 2).blk t).view.emb (ix2 p (0 : Fin 1))) = _
  refine (congrFun (V_recip m c) _).trans (congrArg _ ?_)
  funext a; apply Fin.ext
  match a with
  | ⟨0, _⟩ => show win0_2.index t (0 : Fin 2) * 5000 + 1 * p.val = r.val; rw [e20, hr]
  | ⟨1, _⟩ => show win0_2.index t (1 : Fin 2) * 1 + 1 * 0 = 0; rw [e21]

/-- The block of the left weight half is that half whole, at every point. -/
theorem wLeft_whole (c : Dev nD) (t : Fin cfg0.N) (n q : Fin 128) :
    (iblk m c 3 t : Vec Ideal S128x128 .bf16) (ix2 n q) = wLeft (m ((c : Thread nD τ).loc main_arg3)) (ix2 n q) := by
  obtain ⟨-, -, -, -, -, -, e30, e31, -⟩ := idx_facts t
  show (V m c main_v14 : FVec Ideal S128x128 .bf16) (((cfg0.win 3).blk t).view.emb (ix2 n q)) = _
  refine (congrFun (V_wLeft m c) _).trans (congrArg _ ?_)
  funext a; apply Fin.ext
  match a with
  | ⟨0, _⟩ => show win0_3.index t (0 : Fin 2) * 128 + 1 * n.val = n.val; rw [e30]; omega
  | ⟨1, _⟩ => show win0_3.index t (1 : Fin 2) * 128 + 1 * q.val = q.val; rw [e31]; omega

/-- So is the block of the right weight half. -/
theorem wRight_whole (c : Dev nD) (t : Fin cfg0.N) (n q : Fin 128) :
    (iblk m c 4 t : Vec Ideal S128x128 .bf16) (ix2 n q) = wRight (m ((c : Thread nD τ).loc main_arg3)) (ix2 n q) := by
  obtain ⟨-, -, -, -, -, -, -, -, e40, e41, -⟩ := idx_facts t
  show (V m c main_v17 : FVec Ideal S128x128 .bf16) (((cfg0.win 4).blk t).view.emb (ix2 n q)) = _
  refine (congrFun (V_wRight m c) _).trans (congrArg _ ?_)
  funext a; apply Fin.ext
  match a with
  | ⟨0, _⟩ => show win0_4.index t (0 : Fin 2) * 128 + 1 * n.val = n.val; rw [e40]; omega
  | ⟨1, _⟩ => show win0_4.index t (1 : Fin 2) * 128 + 1 * q.val = q.val; rw [e41]; omega

/-- At point `t`, what the body stores at `(p, q)` of its block is the mean projection's entry `(r, q)`, `r` the array row
    that the output's block has at its row `p`. -/
theorem block_entry (c : Dev nD) (t : Fin cfg0.N) (p : Fin 5000) (q : Fin 128) (r : Fin 50000)
    (hr : r.val = win0_5.index t (0 : Fin 2) * 5000 + 1 * p.val) :
    k0_pay1 (F := Ideal) (iblk m c 2 t) (iblk m c 1 t) (iblk m c 0 t) (iblk m c 3 t) (iblk m c 4 t) (ix2 p q)
      = entry (m ((c : Thread nD τ).loc main_arg0) : FVec Ideal S50000x128 .f32)
          (segSum (m ((c : Thread nD τ).loc main_arg1)) (m ((c : Thread nD τ).loc main_arg2)))
          (count (m ((c : Thread nD τ).loc main_arg2)))
          (m ((c : Thread nD τ).loc main_arg3) : FVec Ideal S128x256 .f32) r q :=
  BlockMean.entry_of_block (iblk m c 2 t) (iblk m c 1 t) (iblk m c 0 t) (iblk m c 3 t) (iblk m c 4 t)
    (m ((c : Thread nD τ).loc main_arg0)) (m ((c : Thread nD τ).loc main_arg1)) (m ((c : Thread nD τ).loc main_arg2))
    (m ((c : Thread nD τ).loc main_arg3)) p r q
    (fun n => self_rows m c t p n r hr) (fun n => seg_rows m c t p n r hr) (recip_rows m c t p r hr)
    (fun n => wLeft_whole m c t n q) (fun n => wRight_whole m c t n q)

/-- What point `t` writes back is its band of rows of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz]
  simp only [View.ld_unit_zero (S := S5000x128) hz, View.ld_unit_zero (S := S5000x1) hz, View.ld_unit_zero (S := S128x128) hz]
  obtain ⟨-, -, -, -, -, -, -, -, -, -, -, e51⟩ := idx_facts t
  funext y
  show k0_pay1 (F := Ideal) (iblk m c 2 t) (iblk m c 1 t) (iblk m c 0 t) (iblk m c 3 t) (iblk m c 4 t) y
    = result m c (((cfg0.win 5).blk t).view.emb y)
  -- the block's column is the array's column
  have hq : (((cfg0.win 5).blk t).view.emb y : S50000x128.Idx) 1 = (⟨(y 1).val, (y 1).isLt⟩ : Fin 128) :=
    Fin.ext (by show win0_5.index t (1 : Fin 2) * 128 + 1 * (y 1).val = (y 1).val; rw [e51]; omega)
  refine (congrArg (k0_pay1 (F := Ideal) (iblk m c 2 t) (iblk m c 1 t) (iblk m c 0 t) (iblk m c 3 t) (iblk m c 4 t))
    (eq_ix2 (n0 := 5000) (n1 := 128) y)).trans ?_
  show _ = entry _ _ _ _ ((((cfg0.win 5).blk t).view.emb y : S50000x128.Idx) 0) ((((cfg0.win 5).blk t).view.emb y : S50000x128.Idx) 1)
  rw [hq]
  exact block_entry m c t (y 0) (y 1) ((((cfg0.win 5).blk t).view.emb y : S50000x128.Idx) 0) rfl

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- Every row of the result lies in the band of the point that covers it: row `r` in band `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the run is the mean projection of the launch contents. -/
theorem final (c : Dev nD) : (dats m 0 c).arrAt 5 cfg0.N = result m c :=
  (dats m 0 c).arrAt_eq_of_cover 5 (result m c) (fun t _ => flushed_eq m c t) cover

/-- The kernel's run, read: the result array at the mean projection of the arguments, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.RowBlocks

end
-- ==== Proof.LibConcatCols.lean ====
/-
  Two arrays with the same rows laid side by side, read at an entry.

  Concatenating `[a, b₁]` and `[a, b₂]` along the columns gives `[a, c]` with `c = b₁ + b₂`. Entry `(p, n)` of the
  result is entry `(p, n)` of the first piece while `n < b₁`, and entry `(p, n - b₁)` of the second piece from
  column `b₁` on. The column is given with an equation (`n = k`, or `n = b₁ + k`) so that a caller whose column is a
  sum or a product of numerals can discharge it by arithmetic.
-/
import Idealize.ShloMosaic.Lib.ValueIdx
import Idealize.ShloMosaic.Lib.Pipeline.Value

noncomputable section

namespace Cert.LibConcatCols

open Idealize.ShloMosaic Idealize.ShloMosaic.ValueIdx

variable {α : Type} {a b₁ b₂ c : ℕ}

/-- A column inside the first piece reads the first piece there. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, c]⟩ 1)
    (p : Fin a) (n : Fin c) (k : Fin b₁) (hn : n.val = k.val) :
    concatenate ⟨2, ![a, c]⟩ 1 [⟨⟨2, ![a, b₁]⟩, x₁⟩, ⟨⟨2, ![a, b₂]⟩, x₂⟩] h (ix2 p n) = x₁ (ix2 p k) :=
  concatenate_pair_apply_left (1 : Fin 2) x₁ x₂ h (ix2 p n) rfl (ix2 p k) fun d =>
    match d with
    | ⟨0, _⟩ => rfl
    | ⟨1, _⟩ => hn.symm

/-- A column past the first piece reads the second piece, the first piece's width to the left. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, c]⟩ 1)
    (p : Fin a) (n : Fin c) (k : Fin b₂) (hn : n.val = b₁ + k.val) :
    concatenate ⟨2, ![a, c]⟩ 1 [⟨⟨2, ![a, b₁]⟩, x₁⟩, ⟨⟨2, ![a, b₂]⟩, x₂⟩] h (ix2 p n) = x₂ (ix2 p k) :=
  concatenate_pair_apply_right (1 : Fin 2) x₁ x₂ h (ix2 p n) rfl rfl (ix2 p k)
    (fun d hd =>
      match d, hd with
      | ⟨0, _⟩, _ => rfl
      | ⟨1, _⟩, hd => absurd rfl hd)
    (by show k.val + b₁ = n.val; omega)

end Cert.LibConcatCols

end
-- ==== Proof.ReferenceMean.lean ====
/-
  The reference computes `MeanProjection.out`.

  Its last operation contracts the 256 columns of the concatenated row with the transposed weights. The sum is cut
  into its two halves: in the first the concatenation reads the node's own features, in the second it reads the
  quotient of the neighbour sum by the raised count, which two broadcasts carried from one number per node to every
  column of the node's row. Transposing the weights only exchanges the two coordinates at which they are read.
-/
import proofs.«109133_j54863912239180_2_alg».proof.Proof.Gen.ReferenceIdeal.Read
import proofs.«109133_j54863912239180_2_alg».proof.Proof.MeanLaws
import proofs.«109133_j54863912239180_2_alg».proof.Proof.MeanProjection
import proofs.«109133_j54863912239180_2_alg».proof.Proof.LibConcatCols

noncomputable section

namespace Cert.ReferenceMean

open Idealize.ShloMosaic Idealize.ShloMosaic.ValueIdx
open Cert.ReferenceIdeal Cert.ReferenceIdeal.Read Cert.MeanProjection

/-- The contraction reads the concatenated row of node `p` at column `k`. -/
theorem row_idx (p : Fin 50000) (q : Fin 128) (k : Fin 256) : lidx_main_v14 (ix2 p q) k = ix2 p k :=
  funext fun a => Fin.ext (by match a with | ⟨0, _⟩ => rfl | ⟨1, _⟩ => rfl)

/-- It reads the transposed weights at `(k, q)`, which is the weights at `(q, k)`. -/
theorem weight_idx (p : Fin 50000) (q : Fin 128) (k : Fin 256) : idx_main_v13 (ridx_main_v14 (ix2 p q) k) = ix2 q k :=
  funext fun a => Fin.ext (by match a with | ⟨0, _⟩ => rfl | ⟨1, _⟩ => rfl)

/-- Every column of node `p`'s row of raised counts is the one raised count of node `p`. -/
theorem count_idx (p : Fin 50000) (n : Fin 128) : idx_main_v9 (idx_main_v10 (ix2 p n)) = ix1 p :=
  funext fun a => Fin.ext (by match a with | ⟨0, _⟩ => rfl)

/-- Output `q` of node `p`, as the reference computes it, is the mean projection's entry: the neighbour sum and the
    raised count are the reference's own two stages. -/
theorem result_entry (x0 : (⟨S50000x128, .f32⟩ : BufTy).Contents (Elt Ideal)) (x1 : (⟨S640000x128, .f32⟩ : BufTy).Contents (Elt Ideal))
    (x2 : (⟨S640000, .i32⟩ : BufTy).Contents (Elt Ideal)) (x3 : (⟨S128x256, .f32⟩ : BufTy).Contents (Elt Ideal))
    (p : Fin 50000) (q : Fin 128) :
    val_main_v14 (F := Ideal) x0 x1 x2 x3 (ix2 p q)
      = entry x0 (val_main_v2 (F := Ideal) x1 x2) (val_main_v8 (F := Ideal) x2) x3 p q := by
  rw [val_main_v14_apply]
  refine (MeanLaws.sum_halves (M := EReal) _).trans ?_
  unfold entry
  refine congrArg₂ (· + ·) (Finset.sum_congr rfl fun n _ => ?_) (Finset.sum_congr rfl fun n _ => ?_)
  · -- a column of the first half: the node's own feature against the weight
    refine congrArg₂ (· * ·) ?_ ((val_main_v13_apply x3 _).trans (congrArg x3 (weight_idx p q _)))
    refine (congrArg (val_main_v12 (F := Ideal) x0 x1 x2) (row_idx p q _)).trans ?_
    exact LibConcatCols.concat_cols_left x0 (val_main_v11 (F := Ideal) x1 x2) _ p _ n rfl
  · -- a column of the second half: the neighbour mean against the weight
    refine congrArg₂ (· * ·) ?_ ((val_main_v13_apply x3 _).trans (congrArg x3 (weight_idx p q _)))
    refine (congrArg (val_main_v12 (F := Ideal) x0 x1 x2) (row_idx p q _)).trans ?_
    refine (LibConcatCols.concat_cols_right x0 (val_main_v11 (F := Ideal) x1 x2) _ p _ n rfl).trans ?_
    refine ((val_main_v11_apply x1 x2 _).trans (Ideal.hostDivf_def _ _)).trans ?_
    refine congrArg (Ideal.div (val_main_v2 (F := Ideal) x1 x2 (ix2 p n))) ?_
    exact (val_main_v10_apply x2 _).trans
      ((val_main_v9_apply x2 _).trans (congrArg (val_main_v8 (F := Ideal) x2) (count_idx p n)))

/-- The reference's result array is the mean projection of the four arrays it was given. -/
theorem result_eq (x0 : (⟨S50000x128, .f32⟩ : BufTy).Contents (Elt Ideal)) (x1 : (⟨S640000x128, .f32⟩ : BufTy).Contents (Elt Ideal))
    (x2 : (⟨S640000, .i32⟩ : BufTy).Contents (Elt Ideal)) (x3 : (⟨S128x256, .f32⟩ : BufTy).Contents (Elt Ideal)) :
    val_main_v14 (F := Ideal) x0 x1 x2 x3
      = out x0 (val_main_v2 (F := Ideal) x1 x2) (val_main_v8 (F := Ideal) x2) x3 :=
  funext fun i =>
    (congrArg (val_main_v14 (F := Ideal) x0 x1 x2 x3) (eq_ix2 i)).trans (result_entry x0 x1 x2 x3 (i 0) (i 1))

end Cert.ReferenceMean

end
-- ==== Proof.SameSums.lean ====
/-
  Both programs begin alike.

  Each adds the edges' feature rows into their source nodes' rows, counts the edges of each node by adding ones
  the same way, and raises the counts to at least one: the same operations on the same operands, written once in
  each program's text. So the neighbour sums and the raised counts of one program are those of the other.
-/
import proofs.«109133_j54863912239180_2_alg».proof.Proof.Gen.ReferenceIdeal.Read
import proofs.«109133_j54863912239180_2_alg».proof.Proof.StagedArrays

noncomputable section

namespace Cert.SameSums

open Idealize.ShloMosaic

/-- The reference's neighbour sums are the kernel host's. -/
theorem segSum_eq (nbr : FVec Ideal Cert.KernelIdeal.S640000x128 .f32) (src : IVec Cert.KernelIdeal.S640000 32) :
    Cert.ReferenceIdeal.Read.val_main_v2 (F := Ideal) nbr src = Cert.StagedArrays.segSum nbr src := rfl

/-- The reference's raised counts are the kernel host's. -/
theorem count_eq (src : IVec Cert.KernelIdeal.S640000 32) :
    Cert.ReferenceIdeal.Read.val_main_v8 (F := Ideal) src = Cert.StagedArrays.count src := rfl

end Cert.SameSums

end
-- ==== Proof.lean ====
/-
  A node's features beside the mean of its neighbours' features, projected by one weight matrix.

  For 50000 nodes with 128 features each and 640000 edges, every edge carrying 128 features and naming a source
  node: each node's neighbour features are summed, the sum is divided by the number of the node's edges raised to at
  least one, the node's own 128 features and these 128 means are laid side by side as a row of 256, and the row is
  contracted with each of the 128 rows of the weights `W` (128 by 256).

  The reference does exactly that: one quotient, one concatenation, one contraction over 256 columns. The kernel
  forms the reciprocal of each raised count first, multiplies the neighbour sums by it, and contracts the node's own
  features with the left half of the weights and the scaled sums with the right half, 5000 nodes at a time, adding
  the two results. Over the extended reals the two agree entry by entry, for every input:

    * a contraction over 256 columns is the sum of the contraction over the first 128 and the contraction over the
      last 128 (`MeanLaws.sum_halves`), and the concatenated row is the own features on the first 128 columns and the
      means on the last 128 (`ReferenceMean.result_entry`);
    * `x * (1 / y) = x / y` for every non-zero `y`, the infinities included, and a count raised to at least one is
      not zero (`MeanLaws.mul_recip`, `StagedArrays.count_ne_zero`; used in `BlockMean.entry_of_block`);
    * the two additions by source node, and the raising of the counts, are the same operations on the same operands
      in both programs (`SameSums`), so they are never opened;
    * the changes of float format in the kernel are the identity on the extended reals;
    * the ten bands of 5000 rows the kernel writes cover the 50000 rows of the result (`RowBlocks.cover`).

  No entry has to be finite for any of this, so the precondition is not used by the value claim. That each program
  runs to its end and leaves its arguments as they were is, for the kernel, the statement of the generated modules
  imported here, and for the reference its run with what it says of the result dropped. The kernel read over the
  extended reals is the kernel's own text, nothing rewritten, so that nothing is lost between the two is trivially true.
-/
import proofs.«109133_j54863912239180_2_alg».proof.Defs
import proofs.«109133_j54863912239180_2_alg».proof.Proof.Gen.Kernel
import proofs.«109133_j54863912239180_2_alg».proof.Proof.Gen.Kernel.Skeleton
import proofs.«109133_j54863912239180_2_alg».proof.Proof.Gen.Kernel.Launch
import proofs.«109133_j54863912239180_2_alg».proof.Proof.Gen.Kernel.Points
import proofs.«109133_j54863912239180_2_alg».proof.Proof.Gen.Kernel.Frame
import proofs.«109133_j54863912239180_2_alg».proof.Proof.Gen.KernelIdeal
import proofs.«109133_j54863912239180_2_alg».proof.Proof.Gen.KernelIdeal.Skeleton
import proofs.«109133_j54863912239180_2_alg».proof.Proof.Gen.KernelIdeal.Launch
import proofs.«109133_j54863912239180_2_alg».proof.Proof.Gen.KernelIdeal.Points
import proofs.«109133_j54863912239180_2_alg».proof.Proof.Gen.KernelIdeal.Frame
import proofs.«109133_j54863912239180_2_alg».proof.Proof.Gen.ReferenceIdeal
import proofs.«109133_j54863912239180_2_alg».proof.Proof.Gen.Pre_finite_inputs
import proofs.«109133_j54863912239180_2_alg».proof.Proof.Gen.KernelIdeal.Value
import proofs.«109133_j54863912239180_2_alg».proof.Proof.Gen.ReferenceIdeal.Run
import proofs.«109133_j54863912239180_2_alg».proof.Proof.Gen.ReferenceIdeal.Read
import proofs.«109133_j54863912239180_2_alg».proof.Proof.RowBlocks
import proofs.«109133_j54863912239180_2_alg».proof.Proof.ReferenceMean
import proofs.«109133_j54863912239180_2_alg».proof.Proof.SameSums
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the four arguments, the kernel's result array and the reference's both end holding
    the mean projection of those arguments. -/
theorem algebraic : Cert.algebraic_KernelIdeal_ReferenceIdeal := by
  intro m ρ m' ρ' _ hagree
  refine ⟨fun c => Cert.RowBlocks.result m c, Cert.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceMean.result_eq, (hagree c).1, (hagree c).2.1,
    (hagree c).2.2.1, (hagree c).2.2.2, Cert.SameSums.segSum_eq, Cert.SameSums.count_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
